-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000 : Shape := ⟨1, ![1600000]⟩
abbrev S32x64 : Shape := ⟨2, ![32, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S64x16 .f32) (main_arg7 : FVec F S64x16 .f32) (main_arg8 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x16 .f32 := Host.absf main_arg6
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S64x16 .f32 := Host.absf main_arg7
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x32 .f32) (main_arg1 : IVec S1600000 32) (main_arg2 : IVec S1600000 32) (main_arg3 : FVec F S32x64 .f32) (main_arg4 : FVec F S32x64 .f32) (main_arg5 : FVec F S64 .f32) (main_arg6 : FVec F S64x16 .f32) (main_arg7 : FVec F S64x16 .f32) (main_arg8 : FVec F S16 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg3
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S32x64 .f32 := Host.absf main_arg4
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_v13 main_v16
-- ==== Kernel.lean ====
abbrev S100000x32 : Shape := ⟨2, ![100000, 32]⟩
abbrev S1600000 : Shape := ⟨1, ![1600000]⟩
abbrev S32x64 : Shape := ⟨2, ![32, 64]⟩
abbrev S64 : Shape := ⟨1, ![64]⟩
abbrev S64x16 : Shape := ⟨2, ![64, 16]⟩
abbrev S16 : Shape := ⟨1, ![16]⟩
abbrev S_ : Shape := ⟨0, ![]⟩
abbrev S100000 : Shape := ⟨1, ![100000]⟩
abbrev S1600000x1 : Shape := ⟨2, ![1600000, 1]⟩
abbrev S1600000x32 : Shape := ⟨2, ![1600000, 32]⟩
abbrev S100000x1 : Shape := ⟨2, ![100000, 1]⟩
abbrev S1x64 : Shape := ⟨2, ![1, 64]⟩
abbrev S100000x64 : Shape := ⟨2, ![100000, 64]⟩
abbrev S5000x32 : Shape := ⟨2, ![5000, 32]⟩
abbrev S5000x64 : Shape := ⟨2, ![5000, 64]⟩
abbrev S1600000x64 : Shape := ⟨2, ![1600000, 64]⟩
abbrev S1x16 : Shape := ⟨2, ![1, 16]⟩
abbrev S100000x16 : Shape := ⟨2, ![100000, 16]⟩
abbrev S5000x16 : Shape := ⟨2, ![5000, 16]⟩

abbrev nBuf : Space → Nat
  | .hbm => 63
  | .vmem => 18
  | .smem => 0
  | _ => 0

abbrev bufTy : (tb : Table) → Fin (tcTables nBuf tb) → BufTy
  | .hbm, ⟨0, _⟩ => ⟨S100000x32, .f32⟩
  | .hbm, ⟨1, _⟩ => ⟨S1600000, .i32⟩
  | .hbm, ⟨2, _⟩ => ⟨S1600000, .i32⟩
  | .hbm, ⟨3, _⟩ => ⟨S32x64, .f32⟩
  | .hbm, ⟨4, _⟩ => ⟨S32x64, .f32⟩
  | .hbm, ⟨5, _⟩ => ⟨S64, .f32⟩
  | .hbm, ⟨6, _⟩ => ⟨S64x16, .f32⟩
  | .hbm, ⟨7, _⟩ => ⟨S64x16, .f32⟩
  | .hbm, ⟨8, _⟩ => ⟨S16, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x32, .f32⟩
  | .hbm, ⟨24, _⟩ => ⟨S_, .f32⟩
  | .hbm, ⟨25, _⟩ => ⟨S100000x32, .f32⟩
  | .hbm, ⟨26, _⟩ => ⟨S1600000x1, .i32⟩
  | .hbm, ⟨27, _⟩ => ⟨S100000x32, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x32, .f32⟩
  | .hbm, ⟨33, _⟩ => ⟨S100000x32, .f32⟩
  | .hbm, ⟨34, _⟩ => ⟨S1x64, .f32⟩
  | .hbm, ⟨35, _⟩ => ⟨S100000x64, .f32⟩
  | .hbm, ⟨36, _⟩ => ⟨S_, .f32⟩
  | .hbm, ⟨37, _⟩ => ⟨S1600000, .f32⟩
  | .hbm, ⟨38, _⟩ => ⟨S_, .f32⟩
  | .hbm, ⟨39, _⟩ => ⟨S100000, .f32⟩
  | .hbm, ⟨40, _⟩ => ⟨S1600000x1, .i32⟩
  | .hbm, ⟨41, _⟩ => ⟨S100000, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S_, .f32⟩
  | .hbm, ⟨56, _⟩ => ⟨S100000, .f32⟩
  | .hbm, ⟨57, _⟩ => ⟨S100000, .f32⟩
  | .hbm, ⟨58, _⟩ => ⟨S100000x1, .f32⟩
  | .hbm, ⟨59, _⟩ => ⟨S100000x64, .f32⟩
  | .hbm, ⟨60, _⟩ => ⟨S100000x64, .f32⟩
  | .hbm, ⟨61, _⟩ => ⟨S1x16, .f32⟩
  | .hbm, ⟨62, _⟩ => ⟨S100000x16, .f32⟩
  | .local _ .vmem, ⟨0, _⟩ => ⟨S5000x32, .f32⟩
  | .local _ .vmem, ⟨1, _⟩ => ⟨S5000x32, .f32⟩
  | .local _ .vmem, ⟨2, _⟩ => ⟨S5000x32, .f32⟩
  | .local _ .vmem, ⟨3, _⟩ => ⟨S5000x32, .f32⟩
  | .local _ .vmem, ⟨4, _⟩ => ⟨S32x64, .f32⟩
  | .local _ .vmem, ⟨5, _⟩ => ⟨S32x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x16, .f32⟩
  | .local _ .vmem, ⟨14, _⟩ => ⟨S64x16, .f32⟩
  | .local _ .vmem, ⟨15, _⟩ => ⟨S1x16, .f32⟩
  | .local _ .vmem, ⟨16, _⟩ => ⟨S5000x16, .f32⟩
  | .local _ .vmem, ⟨17, _⟩ => ⟨S5000x16, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_c_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  shapeCasts_S64_S1x64 : S64.ShapeCasts S1x64
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  shapeCasts_S5000x32_S5000x32 : S5000x32.ShapeCasts S5000x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S16_S1x16 : S16.ShapeCasts S1x16
  shapeCasts_S5000x64_S5000x64 : S5000x64.ShapeCasts S5000x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x64_S5000x64_1_0_0_1_n_n_wf : DotDims.WF S5000x32 S32x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x16_S5000x16_1_0_0_1_n_n_wf : DotDims.WF S5000x64 S64x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S100000x32.size a
  hwx0_1 : ∀ i : grid0.Coords, EltTy.bits .f32 = 32 ∨ (Rect.block (s := S100000x32) S5000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x16.size a ≤ S64x16.size a
  hwx1_2 : ∀ i : grid1.Coords, EltTy.bits .f32 = 32 ∨ (Rect.block (s := S64x16) S64x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x16.size a ≤ S64x16.size a
  hwx1_3 : ∀ i : grid1.Coords, EltTy.bits .f32 = 32 ∨ (Rect.block (s := S64x16) S64x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x16.size a ≤ S100000x16.size a
  hwx1_5 : ∀ i : grid1.Coords, EltTy.bits .f32 = 32 ∨ (Rect.block (s := S100000x16) S5000x16.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x32 : Shape := ⟨2, ![100000, 32]⟩
abbrev S1600000 : Shape := ⟨1, ![1600000]⟩
abbrev S32x64 : Shape := ⟨2, ![32, 64]⟩
abbrev S64 : Shape := ⟨1, ![64]⟩
abbrev S64x16 : Shape := ⟨2, ![64, 16]⟩
abbrev S16 : Shape := ⟨1, ![16]⟩
abbrev S_ : Shape := ⟨0, ![]⟩
abbrev S100000 : Shape := ⟨1, ![100000]⟩
abbrev S1600000x1 : Shape := ⟨2, ![1600000, 1]⟩
abbrev S1600000x32 : Shape := ⟨2, ![1600000, 32]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S100000x16 : Shape := ⟨2, ![100000, 16]⟩
abbrev S1x16 : Shape := ⟨2, ![1, 16]⟩

abbrev nBuf : Space → Nat
  | .hbm => 74
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S1600000, .i32⟩
  | .hbm, ⟨2, _⟩ => ⟨S1600000, .i32⟩
  | .hbm, ⟨3, _⟩ => ⟨S32x64, .f32⟩
  | .hbm, ⟨4, _⟩ => ⟨S32x64, .f32⟩
  | .hbm, ⟨5, _⟩ => ⟨S64, .f32⟩
  | .hbm, ⟨6, _⟩ => ⟨S64x16, .f32⟩
  | .hbm, ⟨7, _⟩ => ⟨S64x16, .f32⟩
  | .hbm, ⟨8, _⟩ => ⟨S16, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x32, .f32⟩
  | .hbm, ⟨24, _⟩ => ⟨S_, .f32⟩
  | .hbm, ⟨25, _⟩ => ⟨S100000x32, .f32⟩
  | .hbm, ⟨26, _⟩ => ⟨S1600000x1, .i32⟩
  | .hbm, ⟨27, _⟩ => ⟨S100000x32, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x32, .f32⟩
  | .hbm, ⟨33, _⟩ => ⟨S100000x32, .f32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S1x64, .f32⟩
  | .hbm, ⟨38, _⟩ => ⟨S100000x64, .f32⟩
  | .hbm, ⟨39, _⟩ => ⟨S100000x64, .f32⟩
  | .hbm, ⟨40, _⟩ => ⟨S_, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S1600000, .f32⟩
  | .hbm, ⟨45, _⟩ => ⟨S_, .f32⟩
  | .hbm, ⟨46, _⟩ => ⟨S100000, .f32⟩
  | .hbm, ⟨47, _⟩ => ⟨S1600000x1, .i32⟩
  | .hbm, ⟨48, _⟩ => ⟨S100000, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x64, .f32⟩
  | .hbm, ⟨67, _⟩ => ⟨S100000x64, .f32⟩
  | .hbm, ⟨68, _⟩ => ⟨S100000x16, .f32⟩
  | .hbm, ⟨69, _⟩ => ⟨S100000x16, .f32⟩
  | .hbm, ⟨70, _⟩ => ⟨S100000x16, .f32⟩
  | .hbm, ⟨71, _⟩ => ⟨S1x16, .f32⟩
  | .hbm, ⟨72, _⟩ => ⟨S100000x16, .f32⟩
  | .hbm, ⟨73, _⟩ => ⟨S100000x16, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x16_S100000x16_1_0_0_1_n_n_wf : DotDims.WF S100000x64 S64x16 S100000x16 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.KernelRun.lean ====
/-
  The kernel program's run with its result named. The program is four segments — the host operations that build
  the first neighbour mean, the first layer's region, the host operations that build the second neighbour mean from
  the first region's result, the second layer's region — and every weakly fair execution of it terminates without a
  fault with each buffer at the contents the segments' fold gives it. Read at the program's result buffer, that is the
  array the second region's twenty write-backs leave; read at an argument, the launch contents.
-/
import proofs.«161024_j29901562315014_1_alg».proof.Proof.Gen.KernelIdeal.Frame

set_option maxRecDepth 16384

noncomputable section

namespace Cert.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at what
    the second region's write-backs leave of its entry contents, and the arguments as launched. -/
theorem run_result : θ_run defs (onTc (τ := τ) (main (F := F))) ⟨m, fun _ => 0, ρ⟩ (fun r => ∀ c : Dev nD,
      r.2.mem ((c.tc : Thread nD τ).loc main_v41) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v41 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.Sage

end
-- ==== Proof.Dense.lean ====
/-
  One SAGE layer at an entry. A layer maps a node-feature array `x` and the neighbour mean `mean` (both [100000, d_in])
  to `x · W_self + mean · W_neigh + b`, entry by entry: entry (r, q) is the sum over the contracted axis of row r of
  `x` times column q of `W_self`, plus the same for `mean` and `W_neigh`, plus `b q`; the first layer then takes the
  maximum with zero. The kernel computes a block of 5000 rows at a time with the matrix unit into a zero accumulator;
  here its stored value is read at row `p`, column `q` of the block: the same two sums over that block row, the bias
  row at column `q`. Conversions between float formats are the identity on the extended reals.
-/
import proofs.«161024_j29901562315014_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.Sage

open Idealize.ShloMosaic Idealize.ShloMosaic.TcCoe Idealize.ShloMosaic.ValueIdx
open Cert.KernelIdeal Cert.KernelIdeal.Gen

/-! ## The two layers as functions of whole arrays -/

/-- Entry (r, q) of the hidden layer: `max ((x·W_self + mean·W_neigh) + b) 0`. -/
def hiddenAt (x mean : FVec Ideal S100000x32 .f32) (ws wn : FVec Ideal S32x64 .f32) (b : FVec Ideal S64 .f32)
    (r : Fin 100000) (q : Fin 64) : Ideal .f32 :=
  max ((∑ k : Fin 32, x (ix2 r k) * ws (ix2 k q) + ∑ k : Fin 32, mean (ix2 r k) * wn (ix2 k q)) + b (ix1 q))
    (Ideal.ofBits .f32 0x00000000#32)

/-- The hidden layer, [100000, 64]. -/
def hidden (x mean : FVec Ideal S100000x32 .f32) (ws wn : FVec Ideal S32x64 .f32) (b : FVec Ideal S64 .f32) :
    FVec Ideal S100000x64 .f32 := fun i => hiddenAt x mean ws wn b (i 0) (i 1)

/-- Entry (r, q) of the output layer: `(h·W_self + mean·W_neigh) + b`, no relu. -/
def outAt (h mean : FVec Ideal S100000x64 .f32) (ws wn : FVec Ideal S64x16 .f32) (b : FVec Ideal S16 .f32)
    (r : Fin 100000) (q : Fin 16) : Ideal .f32 :=
  (∑ k : Fin 64, h (ix2 r k) * ws (ix2 k q) + ∑ k : Fin 64, mean (ix2 r k) * wn (ix2 k q)) + b (ix1 q)

/-- The output layer, [100000, 16]. -/
def out (h mean : FVec Ideal S100000x64 .f32) (ws wn : FVec Ideal S64x16 .f32) (b : FVec Ideal S16 .f32) :
    FVec Ideal S100000x16 .f32 := fun i => outAt h mean ws wn b (i 0) (i 1)

/-! ## The kernel's stored block at an entry -/

theorem mm0_l0 (i : S5000x64.Idx) (c : dot_S5000x32_S32x64_S5000x64_1_0_0_1_n_n.contr.Idx) : (dot_S5000x32_S32x64_S5000x64_1_0_0_1_n_n.lhsIdx i c 0).val = (i 0).val := by
  unfold DotDims.lhsIdx
  rw [dif_neg (show ¬(0 : Fin S5000x32.rank) ∈ dot_S5000x32_S32x64_S5000x64_1_0_0_1_n_n.lhsBatch by decide), dif_pos (show (0 : Fin S5000x32.rank) ∈ dot_S5000x32_S32x64_S5000x64_1_0_0_1_n_n.lhsNonContracting by decide)]
  rfl
theorem mm0_l1 (i : S5000x64.Idx) (c : dot_S5000x32_S32x64_S5000x64_1_0_0_1_n_n.contr.Idx) : (dot_S5000x32_S32x64_S5000x64_1_0_0_1_n_n.lhsIdx i c 1).val = (c ⟨0, by decide⟩).val :=
  dot_S5000x32_S32x64_S5000x64_1_0_0_1_n_n.lhsIdx_val_of_single rfl i c
theorem mm0_r0 (i : S5000x64.Idx) (c : dot_S5000x32_S32x64_S5000x64_1_0_0_1_n_n.contr.Idx) : (dot_S5000x32_S32x64_S5000x64_1_0_0_1_n_n.rhsIdx i c 0).val = (c ⟨0, by decide⟩).val :=
  dot_S5000x32_S32x64_S5000x64_1_0_0_1_n_n.rhsIdx_val_of_single rfl i c
theorem mm0_r1 (i : S5000x64.Idx) (c : dot_S5000x32_S32x64_S5000x64_1_0_0_1_n_n.contr.Idx) : (dot_S5000x32_S32x64_S5000x64_1_0_0_1_n_n.rhsIdx i c 1).val = (i 1).val := by
  unfold DotDims.rhsIdx
  rw [dif_neg (show ¬(1 : Fin S32x64.rank) ∈ dot_S5000x32_S32x64_S5000x64_1_0_0_1_n_n.rhsBatch by decide), dif_pos (show (1 : Fin S32x64.rank) ∈ dot_S5000x32_S32x64_S5000x64_1_0_0_1_n_n.rhsNonContracting by decide)]
  rfl

/-- The matrix unit's product into a zero accumulator, read at row `p`, column `q`: the sum over the contracted
    axis of the left operand's row times the right operand's column. -/
theorem mm0_apply (l : FVec Ideal S5000x32 .bf16) (r : FVec Ideal S32x64 .bf16) (p : Fin 5000) (q : Fin 64) :
    matmul dot_S5000x32_S32x64_S5000x64_1_0_0_1_n_n none l r (constant S5000x64 .f32 0x00000000#32) (ix2 p q)
      = ∑ k : Fin 32, l (ix2 p k) * r (ix2 k q) := by
  simp only [matmul]
  rw [Ideal.matmul_constant_zero_apply, ← Equiv.sum_comp (contrEquiv1 dot_S5000x32_S32x64_S5000x64_1_0_0_1_n_n 32 rfl rfl).symm]
  refine Finset.sum_congr rfl fun k _ => ?_
  have hk := contrEquiv1_symm_val dot_S5000x32_S32x64_S5000x64_1_0_0_1_n_n 32 rfl rfl k
  have el : dot_S5000x32_S32x64_S5000x64_1_0_0_1_n_n.lhsIdx (ix2 p q) ((contrEquiv1 dot_S5000x32_S32x64_S5000x64_1_0_0_1_n_n 32 rfl rfl).symm k) = ix2 p k := funext fun a => Fin.ext (by
    match a with
    | ⟨0, _⟩ => exact mm0_l0 _ _
    | ⟨1, _⟩ => exact (mm0_l1 _ _).trans hk)
  have er : dot_S5000x32_S32x64_S5000x64_1_0_0_1_n_n.rhsIdx (ix2 p q) ((contrEquiv1 dot_S5000x32_S32x64_S5000x64_1_0_0_1_n_n 32 rfl rfl).symm k) = ix2 k q := funext fun a => Fin.ext (by
    match a with
    | ⟨0, _⟩ => exact (mm0_r0 _ _).trans hk
    | ⟨1, _⟩ => exact mm0_r1 _ _)
  rw [el, er]

theorem mm1_l0 (i : S5000x16.Idx) (c : dot_S5000x64_S64x16_S5000x16_1_0_0_1_n_n.contr.Idx) : (dot_S5000x64_S64x16_S5000x16_1_0_0_1_n_n.lhsIdx i c 0).val = (i 0).val := by
  unfold DotDims.lhsIdx
  rw [dif_neg (show ¬(0 : Fin S5000x64.rank) ∈ dot_S5000x64_S64x16_S5000x16_1_0_0_1_n_n.lhsBatch by decide), dif_pos (show (0 : Fin S5000x64.rank) ∈ dot_S5000x64_S64x16_S5000x16_1_0_0_1_n_n.lhsNonContracting by decide)]
  rfl
theorem mm1_l1 (i : S5000x16.Idx) (c : dot_S5000x64_S64x16_S5000x16_1_0_0_1_n_n.contr.Idx) : (dot_S5000x64_S64x16_S5000x16_1_0_0_1_n_n.lhsIdx i c 1).val = (c ⟨0, by decide⟩).val :=
  dot_S5000x64_S64x16_S5000x16_1_0_0_1_n_n.lhsIdx_val_of_single rfl i c
theorem mm1_r0 (i : S5000x16.Idx) (c : dot_S5000x64_S64x16_S5000x16_1_0_0_1_n_n.contr.Idx) : (dot_S5000x64_S64x16_S5000x16_1_0_0_1_n_n.rhsIdx i c 0).val = (c ⟨0, by decide⟩).val :=
  dot_S5000x64_S64x16_S5000x16_1_0_0_1_n_n.rhsIdx_val_of_single rfl i c
theorem mm1_r1 (i : S5000x16.Idx) (c : dot_S5000x64_S64x16_S5000x16_1_0_0_1_n_n.contr.Idx) : (dot_S5000x64_S64x16_S5000x16_1_0_0_1_n_n.rhsIdx i c 1).val = (i 1).val := by
  unfold DotDims.rhsIdx
  rw [dif_neg (show ¬(1 : Fin S64x16.rank) ∈ dot_S5000x64_S64x16_S5000x16_1_0_0_1_n_n.rhsBatch by decide), dif_pos (show (1 : Fin S64x16.rank) ∈ dot_S5000x64_S64x16_S5000x16_1_0_0_1_n_n.rhsNonContracting by decide)]
  rfl

/-- The matrix unit's product into a zero accumulator, read at row `p`, column `q`: the sum over the contracted
    axis of the left operand's row times the right operand's column. -/
theorem mm1_apply (l : FVec Ideal S5000x64 .bf16) (r : FVec Ideal S64x16 .bf16) (p : Fin 5000) (q : Fin 16) :
    matmul dot_S5000x64_S64x16_S5000x16_1_0_0_1_n_n none l r (constant S5000x16 .f32 0x00000000#32) (ix2 p q)
      = ∑ k : Fin 64, l (ix2 p k) * r (ix2 k q) := by
  simp only [matmul]
  rw [Ideal.matmul_constant_zero_apply, ← Equiv.sum_comp (contrEquiv1 dot_S5000x64_S64x16_S5000x16_1_0_0_1_n_n 64 rfl rfl).symm]
  refine Finset.sum_congr rfl fun k _ => ?_
  have hk := contrEquiv1_symm_val dot_S5000x64_S64x16_S5000x16_1_0_0_1_n_n 64 rfl rfl k
  have el : dot_S5000x64_S64x16_S5000x16_1_0_0_1_n_n.lhsIdx (ix2 p q) ((contrEquiv1 dot_S5000x64_S64x16_S5000x16_1_0_0_1_n_n 64 rfl rfl).symm k) = ix2 p k := funext fun a => Fin.ext (by
    match a with
    | ⟨0, _⟩ => exact mm1_l0 _ _
    | ⟨1, _⟩ => exact (mm1_l1 _ _).trans hk)
  have er : dot_S5000x64_S64x16_S5000x16_1_0_0_1_n_n.rhsIdx (ix2 p q) ((contrEquiv1 dot_S5000x64_S64x16_S5000x16_1_0_0_1_n_n 64 rfl rfl).symm k) = ix2 k q := funext fun a => Fin.ext (by
    match a with
    | ⟨0, _⟩ => exact (mm1_r0 _ _).trans hk
    | ⟨1, _⟩ => exact mm1_r1 _ _)
  rw [el, er]

/-- The first layer's stored block at (p, q): the two sums over block row `p`, the bias row at `q`, the relu. -/
theorem pay0_apply (v0 v2 : Vec Ideal S5000x32 .f32) (v5 v7 : Vec Ideal S32x64 .f32) (v12 : Vec Ideal S1x64 .f32)
    (p : Fin 5000) (q : Fin 64) :
    k0_pay1 (F := Ideal) v0 v2 v5 v7 v12 (ix2 p q)
      = max ((∑ k : Fin 32, v0 (ix2 p k) * v5 (ix2 k q) + ∑ k : Fin 32, v2 (ix2 p k) * v7 (ix2 k q)) + v12 (ix2 (0 : Fin 1) q))
          (Ideal.ofBits .f32 0x00000000#32) := by
  unfold k0_pay1
  simp only [shapeCast_self]
  simp only [maximumf_apply, addf_apply, broadcast_apply]
  rw [mm0_apply, mm0_apply, broadcastTo_1b_ab_apply]
  rfl

/-- The second layer's stored block at (p, q): the two sums over block row `p` and the bias row at `q`. -/
theorem pay1_apply (v0 v3 : Vec Ideal S5000x64 .f32) (v6 v8 : Vec Ideal S64x16 .f32) (v13 : Vec Ideal S1x16 .f32)
    (p : Fin 5000) (q : Fin 16) :
    k1_pay1 (F := Ideal) v0 v3 v6 v8 v13 (ix2 p q)
      = (∑ k : Fin 64, v0 (ix2 p k) * v6 (ix2 k q) + ∑ k : Fin 64, v3 (ix2 p k) * v8 (ix2 k q)) + v13 (ix2 (0 : Fin 1) q) := by
  unfold k1_pay1
  simp only [shapeCast_self]
  simp only [addf_apply]
  rw [mm1_apply, mm1_apply, broadcastTo_1b_ab_apply]
  rfl

end Cert.Sage

end
-- ==== Proof.Blocks.lean ====
/-
  From blocks to whole arrays. Each of the two kernel regions runs over a grid of 20 points; at point `t` it reads rows
  `5000·t … 5000·t + 4999` of the node-feature array and of the neighbour-mean array, the whole weight matrices and the
  bias row, and writes back rows `5000·t … 5000·t + 4999` of its result. Entry (p, q) of the written block depends on
  block row p of the two feature blocks only, which is row `5000·t + p` of the arrays, so the block is the restriction of
  ONE whole-array function — the layer of Dense.lean — and, the twenty blocks tiling the 100000 rows, the result array
  ends as that function of the arrays the region found. Stated for any contents `V` at the region's entry.
-/
import proofs.«161024_j29901562315014_1_alg».proof.Proof.Gen.KernelIdeal.Frame
import proofs.«161024_j29901562315014_1_alg».proof.Proof.Dense

set_option maxRecDepth 16384

noncomputable section

namespace Cert.Sage

open Idealize.ShloMosaic Idealize.ShloMosaic.TcCoe Idealize.ShloMosaic.ValueIdx Idealize.SL.Sem
open Idealize.ShloMosaic.Pipeline (Dat)
open Cert.KernelIdeal Cert.KernelIdeal.Gen

theorem zero_off : (![0, 0] : Fin 2 → Nat) = fun _ => 0 := funext fun a => by fin_cases a <;> rfl

variable (V : (c : Dev nD) → (b : Ref sig .tc) → Buf (Elt Ideal) ((c : Thread nD τ).loc b))

/-! ## Region 0: blocks of 5000 rows -/

/-- The index maps over the grid of 20 points: the row-blocked windows (both feature arrays and the result) are at
    block row `t`, column block 0; the weights and the bias row have one block. -/
theorem grid0_index : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Block `t` of window 0 is rows `5000·t … 5000·t + 4999` of its array. -/
theorem read0_0 (c : Dev nD) (t : Fin cfg0.N) (y : S5000x32.Idx) (i : S100000x32.Idx)
    (h0 : (i 0).val = t.val * 5000 + (y 0).val) (h1 : (i 1).val = (y 1).val) :
    (iblk0 V c 0 t : Vec Ideal S5000x32 .f32) y = V c main_arg0 i := by
  obtain ⟨e0, e1, -⟩ := grid0_index t
  show V c main_arg0 (((cfg0.win 0).blk t).view.emb y) = V c main_arg0 i
  refine congrArg (V c main_arg0) (funext fun a => Fin.ext ?_)
  match a with
  | ⟨0, _⟩ => show win0_0.index t (0 : Fin 2) * 5000 + 1 * (y 0).val = (i 0).val; omega
  | ⟨1, _⟩ => show win0_0.index t (1 : Fin 2) * 32 + 1 * (y 1).val = (i 1).val; omega

/-- Block `t` of window 1 is rows `5000·t … 5000·t + 4999` of its array. -/
theorem read0_1 (c : Dev nD) (t : Fin cfg0.N) (y : S5000x32.Idx) (i : S100000x32.Idx)
    (h0 : (i 0).val = t.val * 5000 + (y 0).val) (h1 : (i 1).val = (y 1).val) :
    (iblk0 V c 1 t : Vec Ideal S5000x32 .f32) y = V c main_v18 i := by
  obtain ⟨-, -, e0, e1, -⟩ := grid0_index t
  show V c main_v18 (((cfg0.win 1).blk t).view.emb y) = V c main_v18 i
  refine congrArg (V c main_v18) (funext fun a => Fin.ext ?_)
  match a with
  | ⟨0, _⟩ => show win0_1.index t (0 : Fin 2) * 5000 + 1 * (y 0).val = (i 0).val; omega
  | ⟨1, _⟩ => show win0_1.index t (1 : Fin 2) * 32 + 1 * (y 1).val = (i 1).val; omega

/-- Window 2's one block is its whole array. -/
theorem read0_2 (c : Dev nD) (t : Fin cfg0.N) (y : S32x64.Idx) :
    (iblk0 V c 2 t : Vec Ideal S32x64 .f32) y = V c main_arg3 y := by
  obtain ⟨-, -, -, -, e0, e1, -⟩ := grid0_index t
  show V c main_arg3 (((cfg0.win 2).blk t).view.emb y) = V c main_arg3 y
  refine congrArg (V c main_arg3) (funext fun a => Fin.ext ?_)
  match a with
  | ⟨0, _⟩ => show win0_2.index t (0 : Fin 2) * 32 + 1 * (y 0).val = (y 0).val; omega
  | ⟨1, _⟩ => show win0_2.index t (1 : Fin 2) * 64 + 1 * (y 1).val = (y 1).val; omega

/-- Window 3's one block is its whole array. -/
theorem read0_3 (c : Dev nD) (t : Fin cfg0.N) (y : S32x64.Idx) :
    (iblk0 V c 3 t : Vec Ideal S32x64 .f32) y = V c main_arg4 y := by
  obtain ⟨-, -, -, -, -, -, e0, e1, -⟩ := grid0_index t
  show V c main_arg4 (((cfg0.win 3).blk t).view.emb y) = V c main_arg4 y
  refine congrArg (V c main_arg4) (funext fun a => Fin.ext ?_)
  match a with
  | ⟨0, _⟩ => show win0_3.index t (0 : Fin 2) * 32 + 1 * (y 0).val = (y 0).val; omega
  | ⟨1, _⟩ => show win0_3.index t (1 : Fin 2) * 64 + 1 * (y 1).val = (y 1).val; omega

/-- Window 4's one block is its whole array. -/
theorem read0_4 (c : Dev nD) (t : Fin cfg0.N) (y : S1x64.Idx) :
    (iblk0 V c 4 t : Vec Ideal S1x64 .f32) y = V c main_v19 y := by
  obtain ⟨-, -, -, -, -, -, -, -, e0, e1, -⟩ := grid0_index t
  show V c main_v19 (((cfg0.win 4).blk t).view.emb y) = V c main_v19 y
  refine congrArg (V c main_v19) (funext fun a => Fin.ext ?_)
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- The body's stored value at entry (p, q) of the block, from loaded blocks that agree with whole arrays on the row
    and the columns the entry depends on, is the layer's entry `i` of those arrays. -/
theorem hidden_point (x0 x1 : Vec Ideal S5000x32 .f32) (x2 x3 : Vec Ideal S32x64 .f32) (x4 : Vec Ideal S1x64 .f32)
    (A0 A1 : FVec Ideal S100000x32 .f32) (A2 A3 : FVec Ideal S32x64 .f32) (b : FVec Ideal S64 .f32)
    (p : Fin 5000) (q : Fin 64) (i : S100000x64.Idx)
    (h0 : ∀ k : Fin 32, x0 (ix2 p k) = A0 (ix2 (i 0) k))
    (h1 : ∀ k : Fin 32, x1 (ix2 p k) = A1 (ix2 (i 0) k))
    (h2 : ∀ k : Fin 32, x2 (ix2 k q) = A2 (ix2 k (i 1)))
    (h3 : ∀ k : Fin 32, x3 (ix2 k q) = A3 (ix2 k (i 1)))
    (h4 : x4 (ix2 (0 : Fin 1) q) = b (ix1 (i 1))) :
    k0_pay1 (F := Ideal) x0 x1 x2 x3 x4 (ix2 p q) = hidden A0 A1 A2 A3 b i := by
  rw [pay0_apply]
  unfold hidden hiddenAt
  simp only [h0, h1, h2, h3, h4]

/-- What point `t` writes back is block `t` of the layer of the arrays as the region finds them; the bias window's
    array is a [1, 64] row `b` read at its columns. -/
theorem hidden_block (c : Dev nD) (t : Fin cfg0.N) (b : FVec Ideal S64 .f32)
    (hb : ∀ q : Fin 64, V c main_v19 (ix2 (0 : Fin 1) q) = b (ix1 q)) :
    (dat0 (F := Ideal) V c).flushed 5 t
      = ((cfg0.win 5).blk t).view.read (Elt Ideal) (hidden (V c main_arg0) (V c main_v18) (V c main_arg3) (V c main_arg4) b) := by
  show (cfg0.win 5).cut (grid0.coords t) ((dat0 V c).after 5 t) = _
  rw [after0_5]
  unfold out0_5
  rw [View.canon_unit_zero zero_off]
  simp only [View.ld_unit_zero (S := S5000x32) zero_off, View.ld_unit_zero (S := S32x64) zero_off, View.ld_unit_zero (S := S1x64) zero_off]
  obtain ⟨-, -, -, -, -, -, -, -, -, -, e0, e1⟩ := grid0_index t
  funext j
  have hj0 : ((((cfg0.win 5).blk t).view.emb j) 0).val = t.val * 5000 + (j 0).val := by
    show win0_5.index t (0 : Fin 2) * 5000 + 1 * (j 0).val = _; omega
  have hj1 : ((((cfg0.win 5).blk t).view.emb j) 1).val = (j 1).val := by
    show win0_5.index t (1 : Fin 2) * 64 + 1 * (j 1).val = _; omega
  have hj1' : (((cfg0.win 5).blk t).view.emb j) 1 = j 1 := Fin.ext hj1
  refine (congrArg (k0_pay1 (F := Ideal) (iblk0 V c 0 t) (iblk0 V c 1 t) (iblk0 V c 2 t) (iblk0 V c 3 t) (iblk0 V c 4 t))
    (eq_ix2 (n0 := 5000) (n1 := 64) j)).trans ?_
  refine hidden_point (iblk0 V c 0 t) (iblk0 V c 1 t) (iblk0 V c 2 t) (iblk0 V c 3 t) (iblk0 V c 4 t)
    (V c main_arg0) (V c main_v18) (V c main_arg3) (V c main_arg4) b (j 0) (j 1) (((cfg0.win 5).blk t).view.emb j) ?_ ?_ ?_ ?_ ?_
  · intro k; exact read0_0 V c t _ _ hj0 rfl
  · intro k; exact read0_1 V c t _ _ hj0 rfl
  · intro k; rw [hj1']; exact read0_2 V c t _
  · intro k; rw [hj1']; exact read0_3 V c t _
  · rw [hj1']; exact (read0_4 V c t _).trans (hb (j 1))

/-- An index of the result array is in point `t`'s block iff each coordinate is in the block's range on its axis. -/
theorem mem_rows0 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v20).slice (win0_5.rect t)).set ↔ _
  rw [View.set_slice_whole, Rect.mem_set_unit]
  exact Iff.rfl

/-- Row `r` of the result is written by point `r / 5000`: the twenty blocks tile the 100000 rows. -/
theorem cover0 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : grid0.N = 20 := N_0
  have ht : (i 0).val / 5000 < grid0.N := by omega
  obtain ⟨-, -, -, -, -, -, -, -, -, -, e0, e1⟩ := grid0_index ⟨(i 0).val / 5000, ht⟩
  refine ⟨⟨(i 0).val / 5000, ht⟩, flush0_5 _, ?_⟩
  rw [mem_rows0]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    have e0' : win0_5.index ⟨(i 0).val / 5000, ht⟩ (0 : Fin 2) = (i 0).val / 5000 := e0
    omega
  | ⟨1, _⟩ =>
    show win0_5.index ⟨(i 0).val / 5000, ht⟩ (1 : Fin 2) * 64 ≤ (i 1).val ∧ (i 1).val < win0_5.index ⟨(i 0).val / 5000, ht⟩ (1 : Fin 2) * 64 + 64
    omega

/-- The result array after the region: the layer of the arrays as the region finds them, whole. -/
theorem hidden_array (c : Dev nD) (b : FVec Ideal S64 .f32)
    (hb : ∀ q : Fin 64, V c main_v19 (ix2 (0 : Fin 1) q) = b (ix1 q)) :
    (dat0 (F := Ideal) V c).arrAt 5 cfg0.N = hidden (V c main_arg0) (V c main_v18) (V c main_arg3) (V c main_arg4) b :=
  (dat0 (F := Ideal) V c).arrAt_eq_of_cover 5 _ (fun t _ => hidden_block V c t b hb) cover0

/-! ## Region 1: blocks of 5000 rows -/

/-- The index maps over the grid of 20 points: the row-blocked windows (both feature arrays and the result) are at
    block row `t`, column block 0; the weights and the bias row have one block. -/
theorem grid1_index : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Block `t` of window 0 is rows `5000·t … 5000·t + 4999` of its array. -/
theorem read1_0 (c : Dev nD) (t : Fin cfg1.N) (y : S5000x64.Idx) (i : S100000x64.Idx)
    (h0 : (i 0).val = t.val * 5000 + (y 0).val) (h1 : (i 1).val = (y 1).val) :
    (iblk1 V c 0 t : Vec Ideal S5000x64 .f32) y = V c main_v20 i := by
  obtain ⟨e0, e1, -⟩ := grid1_index t
  show V c main_v20 (((cfg1.win 0).blk t).view.emb y) = V c main_v20 i
  refine congrArg (V c main_v20) (funext fun a => Fin.ext ?_)
  match a with
  | ⟨0, _⟩ => show win1_0.index t (0 : Fin 2) * 5000 + 1 * (y 0).val = (i 0).val; omega
  | ⟨1, _⟩ => show win1_0.index t (1 : Fin 2) * 64 + 1 * (y 1).val = (i 1).val; omega

/-- Block `t` of window 1 is rows `5000·t … 5000·t + 4999` of its array. -/
theorem read1_1 (c : Dev nD) (t : Fin cfg1.N) (y : S5000x64.Idx) (i : S100000x64.Idx)
    (h0 : (i 0).val = t.val * 5000 + (y 0).val) (h1 : (i 1).val = (y 1).val) :
    (iblk1 V c 1 t : Vec Ideal S5000x64 .f32) y = V c main_v39 i := by
  obtain ⟨-, -, e0, e1, -⟩ := grid1_index t
  show V c main_v39 (((cfg1.win 1).blk t).view.emb y) = V c main_v39 i
  refine congrArg (V c main_v39) (funext fun a => Fin.ext ?_)
  match a with
  | ⟨0, _⟩ => show win1_1.index t (0 : Fin 2) * 5000 + 1 * (y 0).val = (i 0).val; omega
  | ⟨1, _⟩ => show win1_1.index t (1 : Fin 2) * 64 + 1 * (y 1).val = (i 1).val; omega

/-- Window 2's one block is its whole array. -/
theorem read1_2 (c : Dev nD) (t : Fin cfg1.N) (y : S64x16.Idx) :
    (iblk1 V c 2 t : Vec Ideal S64x16 .f32) y = V c main_arg6 y := by
  obtain ⟨-, -, -, -, e0, e1, -⟩ := grid1_index t
  show V c main_arg6 (((cfg1.win 2).blk t).view.emb y) = V c main_arg6 y
  refine congrArg (V c main_arg6) (funext fun a => Fin.ext ?_)
  match a with
  | ⟨0, _⟩ => show win1_2.index t (0 : Fin 2) * 64 + 1 * (y 0).val = (y 0).val; omega
  | ⟨1, _⟩ => show win1_2.index t (1 : Fin 2) * 16 + 1 * (y 1).val = (y 1).val; omega

/-- Window 3's one block is its whole array. -/
theorem read1_3 (c : Dev nD) (t : Fin cfg1.N) (y : S64x16.Idx) :
    (iblk1 V c 3 t : Vec Ideal S64x16 .f32) y = V c main_arg7 y := by
  obtain ⟨-, -, -, -, -, -, e0, e1, -⟩ := grid1_index t
  show V c main_arg7 (((cfg1.win 3).blk t).view.emb y) = V c main_arg7 y
  refine congrArg (V c main_arg7) (funext fun a => Fin.ext ?_)
  match a with
  | ⟨0, _⟩ => show win1_3.index t (0 : Fin 2) * 64 + 1 * (y 0).val = (y 0).val; omega
  | ⟨1, _⟩ => show win1_3.index t (1 : Fin 2) * 16 + 1 * (y 1).val = (y 1).val; omega

/-- Window 4's one block is its whole array. -/
theorem read1_4 (c : Dev nD) (t : Fin cfg1.N) (y : S1x16.Idx) :
    (iblk1 V c 4 t : Vec Ideal S1x16 .f32) y = V c main_v40 y := by
  obtain ⟨-, -, -, -, -, -, -, -, e0, e1, -⟩ := grid1_index t
  show V c main_v40 (((cfg1.win 4).blk t).view.emb y) = V c main_v40 y
  refine congrArg (V c main_v40) (funext fun a => Fin.ext ?_)
  match a with
  | ⟨0, _⟩ => show win1_4.index t (0 : Fin 2) * 1 + 1 * (y 0).val = (y 0).val; omega
  | ⟨1, _⟩ => show win1_4.index t (1 : Fin 2) * 16 + 1 * (y 1).val = (y 1).val; omega

/-- The body's stored value at entry (p, q) of the block, from loaded blocks that agree with whole arrays on the row
    and the columns the entry depends on, is the layer's entry `i` of those arrays. -/
theorem out_point (x0 x1 : Vec Ideal S5000x64 .f32) (x2 x3 : Vec Ideal S64x16 .f32) (x4 : Vec Ideal S1x16 .f32)
    (A0 A1 : FVec Ideal S100000x64 .f32) (A2 A3 : FVec Ideal S64x16 .f32) (b : FVec Ideal S16 .f32)
    (p : Fin 5000) (q : Fin 16) (i : S100000x16.Idx)
    (h0 : ∀ k : Fin 64, x0 (ix2 p k) = A0 (ix2 (i 0) k))
    (h1 : ∀ k : Fin 64, x1 (ix2 p k) = A1 (ix2 (i 0) k))
    (h2 : ∀ k : Fin 64, x2 (ix2 k q) = A2 (ix2 k (i 1)))
    (h3 : ∀ k : Fin 64, x3 (ix2 k q) = A3 (ix2 k (i 1)))
    (h4 : x4 (ix2 (0 : Fin 1) q) = b (ix1 (i 1))) :
    k1_pay1 (F := Ideal) x0 x1 x2 x3 x4 (ix2 p q) = out A0 A1 A2 A3 b i := by
  rw [pay1_apply]
  unfold out outAt
  simp only [h0, h1, h2, h3, h4]

/-- What point `t` writes back is block `t` of the layer of the arrays as the region finds them; the bias window's
    array is a [1, 16] row `b` read at its columns. -/
theorem out_block (c : Dev nD) (t : Fin cfg1.N) (b : FVec Ideal S16 .f32)
    (hb : ∀ q : Fin 16, V c main_v40 (ix2 (0 : Fin 1) q) = b (ix1 q)) :
    (dat1 (F := Ideal) V c).flushed 5 t
      = ((cfg1.win 5).blk t).view.read (Elt Ideal) (out (V c main_v20) (V c main_v39) (V c main_arg6) (V c main_arg7) b) := by
  show (cfg1.win 5).cut (grid1.coords t) ((dat1 V c).after 5 t) = _
  rw [after1_5]
  unfold out1_5
  rw [View.canon_unit_zero zero_off]
  simp only [View.ld_unit_zero (S := S5000x64) zero_off, View.ld_unit_zero (S := S64x16) zero_off, View.ld_unit_zero (S := S1x16) zero_off]
  obtain ⟨-, -, -, -, -, -, -, -, -, -, e0, e1⟩ := grid1_index t
  funext j
  have hj0 : ((((cfg1.win 5).blk t).view.emb j) 0).val = t.val * 5000 + (j 0).val := by
    show win1_5.index t (0 : Fin 2) * 5000 + 1 * (j 0).val = _; omega
  have hj1 : ((((cfg1.win 5).blk t).view.emb j) 1).val = (j 1).val := by
    show win1_5.index t (1 : Fin 2) * 16 + 1 * (j 1).val = _; omega
  have hj1' : (((cfg1.win 5).blk t).view.emb j) 1 = j 1 := Fin.ext hj1
  refine (congrArg (k1_pay1 (F := Ideal) (iblk1 V c 0 t) (iblk1 V c 1 t) (iblk1 V c 2 t) (iblk1 V c 3 t) (iblk1 V c 4 t))
    (eq_ix2 (n0 := 5000) (n1 := 16) j)).trans ?_
  refine out_point (iblk1 V c 0 t) (iblk1 V c 1 t) (iblk1 V c 2 t) (iblk1 V c 3 t) (iblk1 V c 4 t)
    (V c main_v20) (V c main_v39) (V c main_arg6) (V c main_arg7) b (j 0) (j 1) (((cfg1.win 5).blk t).view.emb j) ?_ ?_ ?_ ?_ ?_
  · intro k; exact read1_0 V c t _ _ hj0 rfl
  · intro k; exact read1_1 V c t _ _ hj0 rfl
  · intro k; rw [hj1']; exact read1_2 V c t _
  · intro k; rw [hj1']; exact read1_3 V c t _
  · rw [hj1']; exact (read1_4 V c t _).trans (hb (j 1))

/-- An index of the result array is in point `t`'s block iff each coordinate is in the block's range on its axis. -/
theorem mem_rows1 (t : Fin cfg1.N) (i : S100000x16.Idx) :
    i ∈ ((cfg1.win 5).blk t).view.set ↔ ∀ a : Fin 2, win1_5.index t a * S5000x16.size a ≤ (i a).val ∧ (i a).val < win1_5.index t a * S5000x16.size a + S5000x16.size a := by
  show i ∈ ((View.whole main_v41).slice (win1_5.rect t)).set ↔ _
  rw [View.set_slice_whole, Rect.mem_set_unit]
  exact Iff.rfl

/-- Row `r` of the result is written by point `r / 5000`: the twenty blocks tile the 100000 rows. -/
theorem cover1 (i : S100000x16.Idx) : ∃ t : Fin cfg1.N, (cfg1.win 5).flush t = true ∧ i ∈ ((cfg1.win 5).blk t).view.set := by
  have hi0 : (i 0).val < 100000 := (i 0).isLt
  have hi1 : (i 1).val < 16 := (i 1).isLt
  have hN : grid1.N = 20 := N_1
  have ht : (i 0).val / 5000 < grid1.N := by omega
  obtain ⟨-, -, -, -, -, -, -, -, -, -, e0, e1⟩ := grid1_index ⟨(i 0).val / 5000, ht⟩
  refine ⟨⟨(i 0).val / 5000, ht⟩, flush1_5 _, ?_⟩
  rw [mem_rows1]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    have e0' : win1_5.index ⟨(i 0).val / 5000, ht⟩ (0 : Fin 2) = (i 0).val / 5000 := e0
    omega
  | ⟨1, _⟩ =>
    show win1_5.index ⟨(i 0).val / 5000, ht⟩ (1 : Fin 2) * 16 ≤ (i 1).val ∧ (i 1).val < win1_5.index ⟨(i 0).val / 5000, ht⟩ (1 : Fin 2) * 16 + 16
    omega

/-- The result array after the region: the layer of the arrays as the region finds them, whole. -/
theorem out_array (c : Dev nD) (b : FVec Ideal S16 .f32)
    (hb : ∀ q : Fin 16, V c main_v40 (ix2 (0 : Fin 1) q) = b (ix1 q)) :
    (dat1 (F := Ideal) V c).arrAt 5 cfg1.N = out (V c main_v20) (V c main_v39) (V c main_arg6) (V c main_arg7) b :=
  (dat1 (F := Ideal) V c).arrAt_eq_of_cover 5 _ (fun t _ => out_block V c t b hb) cover1

end Cert.Sage

end
-- ==== Proof.Mean.lean ====
/-
  The neighbour mean. For every edge e the row `src e` of a node-feature array is gathered (a negative index first
  moved up by the number of nodes) and added into row `dst e` of a zero array; each row of the sum is then divided by
  the node's in-degree — the number of edges ending at it, counted by the same scattered addition of ones — or by 1
  where that is larger. Both programs build it with the same host operations, so it is kept as one function of the
  feature array and the two index arrays and never opened.
-/
import proofs.«161024_j29901562315014_1_alg».proof.Proof.Gen.KernelIdeal

noncomputable section

namespace Cert.Sage

open Idealize.ShloMosaic Idealize.ShloMosaic.TcCoe
open Cert.KernelIdeal Cert.KernelIdeal.Facts₀

variable {F : FTy → Type} [FloatOps F]

/-- The gather's row indices: `src`, a negative entry raised by 100000. -/
def wrapped (src : (⟨S1600000, .i32⟩ : BufTy).Contents (Elt F)) : (⟨S1600000x1, .i32⟩ : BufTy).Contents (Elt F) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Each node's divisor: its in-degree, or 1 where that is larger. -/
def divisor (dst : (⟨S1600000, .i32⟩ : BufTy).Contents (Elt F)) : (⟨S100000, .f32⟩ : BufTy).Contents (Elt F) :=
  maximumf
    (Host.scatterAdd scatter_S100000_S1600000x1_S1600000_n_0_0_1
      (broadcastInDim S100000 ![] bcast_S_S100000 (constant S_ .f32 0x00000000#32))
      (broadcastInDim S1600000x1 ![0] bcast_S1600000_S1600000x1_0 dst)
      (broadcastInDim S1600000 ![] bcast_S_S1600000 (constant S_ .f32 0x3F800000#32)))
    (broadcastInDim S100000 ![] bcast_S_S100000 (constant S_ .f32 0x3F800000#32))

/-- The neighbour mean of a [100000, 32] array. -/
def mean32 (x : (⟨S100000x32, .f32⟩ : BufTy).Contents (Elt F)) (src dst : (⟨S1600000, .i32⟩ : BufTy).Contents (Elt F)) :
    (⟨S100000x32, .f32⟩ : BufTy).Contents (Elt F) :=
  Host.divf
    (Host.scatterAdd scatter_S100000x32_S1600000x1_S1600000x32_1_0_0_1
      (broadcastInDim S100000x32 ![] bcast_S_S100000x32 (constant S_ .f32 0x00000000#32))
      (broadcastInDim S1600000x1 ![0] bcast_S1600000_S1600000x1_0 dst)
      (Host.gather gather_S100000x32_S1600000x1_S1600000x32_1_0_n_n_0_1_132 x (wrapped src)))
    (broadcastInDim S100000x32 ![0, 1] bcast_S100000x1_S100000x32_0_1
      (broadcastInDim S100000x1 ![0] bcast_S100000_S100000x1_0 (divisor dst)))

/-- The neighbour mean of a [100000, 64] array. -/
def mean64 (h : (⟨S100000x64, .f32⟩ : BufTy).Contents (Elt F)) (src dst : (⟨S1600000, .i32⟩ : BufTy).Contents (Elt F)) :
    (⟨S100000x64, .f32⟩ : BufTy).Contents (Elt F) :=
  Host.divf
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 dst)
      (Host.gather gather_S100000x64_S1600000x1_S1600000x64_1_0_n_n_0_1_164 h (wrapped src)))
    (broadcastInDim S100000x64 ![0, 1] bcast_S100000x1_S100000x64_0_1
      (broadcastInDim S100000x1 ![0] bcast_S100000_S100000x1_0 (divisor dst)))

end Cert.Sage

end
-- ==== Proof.Segments.lean ====
/-
  The contents of the buffers at the boundaries of the kernel program's four segments, from the launch memory `m`.
  Entering the first region: the features and the first layer's weights are the arguments, the neighbour-mean buffer
  holds the neighbour mean of the features, the bias buffer the bias as a [1, 64] row. Leaving it: the result buffer
  holds the first layer — the hidden array — and nothing else has changed. Entering the second region: the hidden
  array is still there, the second neighbour-mean buffer holds the neighbour mean of the hidden array, the weights are
  the arguments, the bias buffer the second bias as a [1, 16] row. So the second region's result is the second layer of
  the hidden array and its neighbour mean: one function of the arguments.
-/
import proofs.«161024_j29901562315014_1_alg».proof.Proof.Blocks
import proofs.«161024_j29901562315014_1_alg».proof.Proof.Mean
import Idealize.ShloMosaic.Lib.StableHlo.Run

set_option maxRecDepth 16384

noncomputable section

namespace Cert.Sage

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-- What the whole program computes from its arguments: the second layer of the hidden array and that array's
    neighbour mean, the hidden array being the first layer of the features and their neighbour mean. -/
def result (c : Dev nD) : FVec Ideal S100000x16 .f32 :=
  out (hidden (m ((c : Thread nD τ).loc main_arg0)) (mean32 (m ((c : Thread nD τ).loc main_arg0)) (m ((c : Thread nD τ).loc main_arg1)) (m ((c : Thread nD τ).loc main_arg2))) (m ((c : Thread nD τ).loc main_arg3)) (m ((c : Thread nD τ).loc main_arg4)) (m ((c : Thread nD τ).loc main_arg5)))
    (mean64 (hidden (m ((c : Thread nD τ).loc main_arg0)) (mean32 (m ((c : Thread nD τ).loc main_arg0)) (m ((c : Thread nD τ).loc main_arg1)) (m ((c : Thread nD τ).loc main_arg2))) (m ((c : Thread nD τ).loc main_arg3)) (m ((c : Thread nD τ).loc main_arg4)) (m ((c : Thread nD τ).loc main_arg5))) (m ((c : Thread nD τ).loc main_arg1)) (m ((c : Thread nD τ).loc main_arg2)))
    (m ((c : Thread nD τ).loc main_arg6)) (m ((c : Thread nD τ).loc main_arg7)) (m ((c : Thread nD τ).loc main_arg8))

/-! ## Entering the first region -/

theorem entry0_arg0 (c : Dev nD) : W1 m ρ c (Proc.devRef .tc main_arg0) = m ((c : Thread nD τ).loc main_arg0) := by
  show StableHlo.after hostOps0 (W0 m ρ c) (Proc.devRef .tc main_arg0) = _
  after_results_simp
theorem entry0_arg1 (c : Dev nD) : W1 m ρ c (Proc.devRef .tc main_arg1) = m ((c : Thread nD τ).loc main_arg1) := by
  show StableHlo.after hostOps0 (W0 m ρ c) (Proc.devRef .tc main_arg1) = _
  after_results_simp
theorem entry0_arg2 (c : Dev nD) : W1 m ρ c (Proc.devRef .tc main_arg2) = m ((c : Thread nD τ).loc main_arg2) := by
  show StableHlo.after hostOps0 (W0 m ρ c) (Proc.devRef .tc main_arg2) = _
  after_results_simp
theorem entry0_arg3 (c : Dev nD) : W1 m ρ c (Proc.devRef .tc main_arg3) = m ((c : Thread nD τ).loc main_arg3) := by
  show StableHlo.after hostOps0 (W0 m ρ c) (Proc.devRef .tc main_arg3) = _
  after_results_simp
theorem entry0_arg4 (c : Dev nD) : W1 m ρ c (Proc.devRef .tc main_arg4) = m ((c : Thread nD τ).loc main_arg4) := by
  show StableHlo.after hostOps0 (W0 m ρ c) (Proc.devRef .tc main_arg4) = _
  after_results_simp
theorem entry0_arg6 (c : Dev nD) : W1 m ρ c (Proc.devRef .tc main_arg6) = m ((c : Thread nD τ).loc main_arg6) := by
  show StableHlo.after hostOps0 (W0 m ρ c) (Proc.devRef .tc main_arg6) = _
  after_results_simp
theorem entry0_arg7 (c : Dev nD) : W1 m ρ c (Proc.devRef .tc main_arg7) = m ((c : Thread nD τ).loc main_arg7) := by
  show StableHlo.after hostOps0 (W0 m ρ c) (Proc.devRef .tc main_arg7) = _
  after_results_simp
theorem entry0_arg8 (c : Dev nD) : W1 m ρ c (Proc.devRef .tc main_arg8) = m ((c : Thread nD τ).loc main_arg8) := by
  show StableHlo.after hostOps0 (W0 m ρ c) (Proc.devRef .tc main_arg8) = _
  after_results_simp

set_option maxHeartbeats 4000000 in
/-- The first neighbour-mean buffer holds the neighbour mean of the features. -/
theorem entry0_mean (c : Dev nD) :
    W1 m ρ c (Proc.devRef .tc main_v18) = mean32 (m ((c : Thread nD τ).loc main_arg0)) (m ((c : Thread nD τ).loc main_arg1)) (m ((c : Thread nD τ).loc main_arg2)) := by
  show StableHlo.after hostOps0 (W0 m ρ c) (Proc.devRef .tc main_v18) = _
  after_results_simp
  rfl

/-- The first bias buffer holds the bias as a [1, 64] row. -/
theorem entry0_bias (c : Dev nD) (q : Fin 64) :
    V1 m ρ c main_v19 (ix2 (0 : Fin 1) q) = m ((c : Thread nD τ).loc main_arg5) (ix1 q) := by
  have e : V1 m ρ c main_v19 = shapeCast S1x64 (m ((c : Thread nD τ).loc main_arg5)) Facts₀.shapeCasts_S64_S1x64 := by
    show StableHlo.after hostOps0 (W0 m ρ c) (Proc.devRef .tc main_v19) = _
    after_results_simp
    rfl
  rw [e]
  exact ValueIdx.shapeCast_a_1a_apply _ _ 0 q

/-! ## Leaving the first region -/

/-- The first region's result buffer holds the hidden array. -/
theorem exit0_hidden (c : Dev nD) : W2 m ρ c (Proc.devRef .tc main_v20) = (hidden (m ((c : Thread nD τ).loc main_arg0)) (mean32 (m ((c : Thread nD τ).loc main_arg0)) (m ((c : Thread nD τ).loc main_arg1)) (m ((c : Thread nD τ).loc main_arg2))) (m ((c : Thread nD τ).loc main_arg3)) (m ((c : Thread nD τ).loc main_arg4)) (m ((c : Thread nD τ).loc main_arg5))) := by
  refine (W2_arr m ρ c 5).trans ((hidden_array (V1 m ρ) c (m ((c : Thread nD τ).loc main_arg5)) (entry0_bias m ρ c)).trans ?_)
  show hidden (W1 m ρ c (Proc.devRef .tc main_arg0)) (W1 m ρ c (Proc.devRef .tc main_v18)) (W1 m ρ c (Proc.devRef .tc main_arg3))
    (W1 m ρ c (Proc.devRef .tc main_arg4)) _ = _
  rw [entry0_arg0, entry0_mean, entry0_arg3, entry0_arg4]

theorem exit0_arg1 (c : Dev nD) : W2 m ρ c (Proc.devRef .tc main_arg1) = m ((c : Thread nD τ).loc main_arg1) :=
  (W2_of_ne m ρ c main_arg1 (by decide)).trans (entry0_arg1 m ρ c)
theorem exit0_arg2 (c : Dev nD) : W2 m ρ c (Proc.devRef .tc main_arg2) = m ((c : Thread nD τ).loc main_arg2) :=
  (W2_of_ne m ρ c main_arg2 (by decide)).trans (entry0_arg2 m ρ c)
theorem exit0_arg6 (c : Dev nD) : W2 m ρ c (Proc.devRef .tc main_arg6) = m ((c : Thread nD τ).loc main_arg6) :=
  (W2_of_ne m ρ c main_arg6 (by decide)).trans (entry0_arg6 m ρ c)
theorem exit0_arg7 (c : Dev nD) : W2 m ρ c (Proc.devRef .tc main_arg7) = m ((c : Thread nD τ).loc main_arg7) :=
  (W2_of_ne m ρ c main_arg7 (by decide)).trans (entry0_arg7 m ρ c)
theorem exit0_arg8 (c : Dev nD) : W2 m ρ c (Proc.devRef .tc main_arg8) = m ((c : Thread nD τ).loc main_arg8) :=
  (W2_of_ne m ρ c main_arg8 (by decide)).trans (entry0_arg8 m ρ c)

/-! ## Entering the second region -/

theorem entry1_v20 (c : Dev nD) : W3 m ρ c (Proc.devRef .tc main_v20) = W2 m ρ c (Proc.devRef .tc main_v20) := by
  show StableHlo.after hostOps1 (W2 m ρ c) (Proc.devRef .tc main_v20) = _
  after_results_simp
theorem entry1_arg6 (c : Dev nD) : W3 m ρ c (Proc.devRef .tc main_arg6) = W2 m ρ c (Proc.devRef .tc main_arg6) := by
  show StableHlo.after hostOps1 (W2 m ρ c) (Proc.devRef .tc main_arg6) = _
  after_results_simp
theorem entry1_arg7 (c : Dev nD) : W3 m ρ c (Proc.devRef .tc main_arg7) = W2 m ρ c (Proc.devRef .tc main_arg7) := by
  show StableHlo.after hostOps1 (W2 m ρ c) (Proc.devRef .tc main_arg7) = _
  after_results_simp

set_option maxHeartbeats 4000000 in
/-- The second neighbour-mean buffer holds the neighbour mean of the hidden array. -/
theorem entry1_mean (c : Dev nD) :
    W3 m ρ c (Proc.devRef .tc main_v39) = mean64 (hidden (m ((c : Thread nD τ).loc main_arg0)) (mean32 (m ((c : Thread nD τ).loc main_arg0)) (m ((c : Thread nD τ).loc main_arg1)) (m ((c : Thread nD τ).loc main_arg2))) (m ((c : Thread nD τ).loc main_arg3)) (m ((c : Thread nD τ).loc main_arg4)) (m ((c : Thread nD τ).loc main_arg5))) (m ((c : Thread nD τ).loc main_arg1)) (m ((c : Thread nD τ).loc main_arg2)) := by
  have e : W3 m ρ c (Proc.devRef .tc main_v39)
      = mean64 (W2 m ρ c (Proc.devRef .tc main_v20)) (W2 m ρ c (Proc.devRef .tc main_arg1)) (W2 m ρ c (Proc.devRef .tc main_arg2)) := by
    show StableHlo.after hostOps1 (W2 m ρ c) (Proc.devRef .tc main_v39) = _
    after_results_simp
    rfl
  rw [e, exit0_hidden, exit0_arg1, exit0_arg2]

/-- The second bias buffer holds the second bias as a [1, 16] row. -/
theorem entry1_bias (c : Dev nD) (q : Fin 16) :
    V3 m ρ c main_v40 (ix2 (0 : Fin 1) q) = m ((c : Thread nD τ).loc main_arg8) (ix1 q) := by
  have e : V3 m ρ c main_v40 = shapeCast S1x16 (W2 m ρ c (Proc.devRef .tc main_arg8)) Facts₀.shapeCasts_S16_S1x16 := by
    show StableHlo.after hostOps1 (W2 m ρ c) (Proc.devRef .tc main_v40) = _
    after_results_simp
    rfl
  rw [e, exit0_arg8]
  exact ValueIdx.shapeCast_a_1a_apply _ _ 0 q

/-! ## The second region's result -/

/-- What the second region's twenty write-backs leave in the program's result buffer is `result`. -/
theorem result_eq (c : Dev nD) : (dat1 (V3 m ρ) c).arrAt 5 cfg1.N = result m c := by
  refine (out_array (V3 m ρ) c (m ((c : Thread nD τ).loc main_arg8)) (entry1_bias m ρ c)).trans ?_
  show out (W3 m ρ c (Proc.devRef .tc main_v20)) (W3 m ρ c (Proc.devRef .tc main_v39)) (W3 m ρ c (Proc.devRef .tc main_arg6))
    (W3 m ρ c (Proc.devRef .tc main_arg7)) _ = _
  rw [entry1_v20, entry1_mean, entry1_arg6, entry1_arg7, exit0_hidden, exit0_arg6, exit0_arg7]
  rfl

end Cert.Sage

end
-- ==== Proof.RefSide.lean ====
/-
  The reference, stage by stage, is the same two layers over the same neighbour means. Its host operations build the
  first neighbour mean, multiply the features and the mean by the weight matrices with two whole `dot_general`s — at
  an entry (r, q) the sum over the contracted axis of row r times column q —, add the bias broadcast along the rows,
  take the maximum with zero, and repeat without the maximum on the hidden array. Read at an index, each stage is the
  layer's entry of Dense.lean; the two neighbour means are, operation for operation, those of Mean.lean.
-/
import proofs.«161024_j29901562315014_1_alg».proof.Proof.Gen.ReferenceIdeal.Read
import proofs.«161024_j29901562315014_1_alg».proof.Proof.Dense
import proofs.«161024_j29901562315014_1_alg».proof.Proof.Mean

set_option maxRecDepth 16384

noncomputable section

namespace Cert.Sage.Ref

open Idealize.ShloMosaic Idealize.ShloMosaic.TcCoe Idealize.ShloMosaic.ValueIdx
open Cert.ReferenceIdeal Cert.ReferenceIdeal.Read

/-- The reference's first neighbour mean is the neighbour mean of the features. -/
theorem mean1_eq (x0 : (⟨S100000x32, .f32⟩ : BufTy).Contents (Elt Ideal)) (x1 x2 : (⟨S1600000, .i32⟩ : BufTy).Contents (Elt Ideal)) :
    val_main_v18 (F := Ideal) x0 x1 x2 = Cert.Sage.mean32 x0 x1 x2 := rfl

/-- Its hidden array is the first layer of the features and their neighbour mean. -/
theorem hidden_eq (x0 : (⟨S100000x32, .f32⟩ : BufTy).Contents (Elt Ideal)) (x1 x2 : (⟨S1600000, .i32⟩ : BufTy).Contents (Elt Ideal)) (x3 x4 : (⟨S32x64, .f32⟩ : BufTy).Contents (Elt Ideal)) (x5 : (⟨S64, .f32⟩ : BufTy).Contents (Elt Ideal)) :
    val_main_v25 (F := Ideal) x0 x1 x2 x3 x4 x5 = Cert.Sage.hidden x0 (Cert.Sage.mean32 x0 x1 x2) x3 x4 x5 := by
  funext i
  have el1 : ∀ k : Fin 32, lidx_main_v19 i k = ix2 (i 0) k := fun k => funext fun a => Fin.ext (by match a with | ⟨0, _⟩ => rfl | ⟨1, _⟩ => rfl)
  have er1 : ∀ k : Fin 32, ridx_main_v19 i k = ix2 k (i 1) := fun k => funext fun a => Fin.ext (by match a with | ⟨0, _⟩ => rfl | ⟨1, _⟩ => rfl)
  have el2 : ∀ k : Fin 32, lidx_main_v20 i k = ix2 (i 0) k := fun k => funext fun a => Fin.ext (by match a with | ⟨0, _⟩ => rfl | ⟨1, _⟩ => rfl)
  have er2 : ∀ k : Fin 32, ridx_main_v20 i k = ix2 k (i 1) := fun k => funext fun a => Fin.ext (by match a with | ⟨0, _⟩ => rfl | ⟨1, _⟩ => rfl)
  have eb : idx_main_v22 (idx_main_v23 i) = ix1 (i 1) := funext fun a => Fin.ext (by match a with | ⟨0, _⟩ => rfl)
  rw [val_main_v25_apply, val_main_v24_apply, val_main_v21_apply, val_main_v19_apply, val_main_v20_apply, val_main_v23_apply,
    val_main_v22_apply, val_main_call0_v0_apply, val_main_call0_cst_apply]
  simp only [el1, er1, el2, er2, eb, mean1_eq]
  rfl

/-- Its second neighbour mean is the neighbour mean of the hidden array. -/
theorem mean2_eq (x0 : (⟨S100000x32, .f32⟩ : BufTy).Contents (Elt Ideal)) (x1 x2 : (⟨S1600000, .i32⟩ : BufTy).Contents (Elt Ideal)) (x3 x4 : (⟨S32x64, .f32⟩ : BufTy).Contents (Elt Ideal)) (x5 : (⟨S64, .f32⟩ : BufTy).Contents (Elt Ideal)) :
    val_main_v44 (F := Ideal) x0 x1 x2 x3 x4 x5 = Cert.Sage.mean64 (val_main_v25 (F := Ideal) x0 x1 x2 x3 x4 x5) x1 x2 := rfl

/-- Its result is the second layer of the hidden array and that array's neighbour mean. -/
theorem out_eq (x0 : (⟨S100000x32, .f32⟩ : BufTy).Contents (Elt Ideal)) (x1 x2 : (⟨S1600000, .i32⟩ : BufTy).Contents (Elt Ideal)) (x3 x4 : (⟨S32x64, .f32⟩ : BufTy).Contents (Elt Ideal)) (x5 : (⟨S64, .f32⟩ : BufTy).Contents (Elt Ideal)) (x6 x7 : (⟨S64x16, .f32⟩ : BufTy).Contents (Elt Ideal)) (x8 : (⟨S16, .f32⟩ : BufTy).Contents (Elt Ideal)) :
    val_main_v50 (F := Ideal) x0 x1 x2 x3 x4 x5 x6 x7 x8
      = Cert.Sage.out (Cert.Sage.hidden x0 (Cert.Sage.mean32 x0 x1 x2) x3 x4 x5)
          (Cert.Sage.mean64 (Cert.Sage.hidden x0 (Cert.Sage.mean32 x0 x1 x2) x3 x4 x5) x1 x2) x6 x7 x8 := by
  rw [← hidden_eq]
  funext i
  have el1 : ∀ k : Fin 64, lidx_main_v45 i k = ix2 (i 0) k := fun k => funext fun a => Fin.ext (by match a with | ⟨0, _⟩ => rfl | ⟨1, _⟩ => rfl)
  have er1 : ∀ k : Fin 64, ridx_main_v45 i k = ix2 k (i 1) := fun k => funext fun a => Fin.ext (by match a with | ⟨0, _⟩ => rfl | ⟨1, _⟩ => rfl)
  have el2 : ∀ k : Fin 64, lidx_main_v46 i k = ix2 (i 0) k := fun k => funext fun a => Fin.ext (by match a with | ⟨0, _⟩ => rfl | ⟨1, _⟩ => rfl)
  have er2 : ∀ k : Fin 64, ridx_main_v46 i k = ix2 k (i 1) := fun k => funext fun a => Fin.ext (by match a with | ⟨0, _⟩ => rfl | ⟨1, _⟩ => rfl)
  have eb : idx_main_v48 (idx_main_v49 i) = ix1 (i 1) := funext fun a => Fin.ext (by match a with | ⟨0, _⟩ => rfl)
  rw [val_main_v50_apply, val_main_v47_apply, val_main_v45_apply, val_main_v46_apply, val_main_v49_apply, val_main_v48_apply]
  simp only [el1, er1, el2, er2, eb, mean2_eq]
  rfl

end Cert.Sage.Ref

end
-- ==== Proof.lean ====
/-
  A two-layer GraphSAGE network over 100000 nodes and 1600000 edges. Each layer maps a node-feature array `x` to
  `x · W_self + mean(x) · W_neigh + b`, where `mean(x)` is the neighbour mean (rows gathered along the edges, added at
  their end nodes, divided by the in-degree or 1); the first layer is followed by the maximum with zero. The kernel
  program builds each neighbour mean with host operations and computes each layer in a kernel region, 5000 rows at a
  time on the matrix unit; the reference does everything with whole-array host operations. On the extended reals the
  two are the same function of the arguments, entry by entry: a block's matrix product into a zero accumulator and the
  whole `dot_general` are the same sums over the contracted axis, added in the same order to the same bias, and the
  neighbour means are built by the same operations. No law beyond that is used, so finiteness of the inputs is not.

  Dense.lean      one layer at an entry; the kernel's stored block at an entry
  Blocks.lean     a region's result array is the layer of the arrays it finds, whole
  Mean.lean       the neighbour mean, as both programs build it
  Segments.lean   the buffers at the segment boundaries; the program's result as one function of the arguments
  KernelRun.lean  the kernel program's run with its result named
  RefSide.lean    the reference, stage by stage, is the same function
-/
import proofs.«161024_j29901562315014_1_alg».proof.Defs
import proofs.«161024_j29901562315014_1_alg».proof.Proof.Gen.Kernel
import proofs.«161024_j29901562315014_1_alg».proof.Proof.Gen.Kernel.Skeleton
import proofs.«161024_j29901562315014_1_alg».proof.Proof.Gen.Kernel.Launch
import proofs.«161024_j29901562315014_1_alg».proof.Proof.Gen.Kernel.Points
import proofs.«161024_j29901562315014_1_alg».proof.Proof.Gen.Kernel.Frame
import proofs.«161024_j29901562315014_1_alg».proof.Proof.Gen.KernelIdeal
import proofs.«161024_j29901562315014_1_alg».proof.Proof.Gen.KernelIdeal.Skeleton
import proofs.«161024_j29901562315014_1_alg».proof.Proof.Gen.KernelIdeal.Launch
import proofs.«161024_j29901562315014_1_alg».proof.Proof.Gen.KernelIdeal.Points
import proofs.«161024_j29901562315014_1_alg».proof.Proof.Gen.KernelIdeal.Frame
import proofs.«161024_j29901562315014_1_alg».proof.Proof.Gen.ReferenceIdeal
import proofs.«161024_j29901562315014_1_alg».proof.Proof.Gen.ReferenceIdeal.Run
import proofs.«161024_j29901562315014_1_alg».proof.Proof.Gen.ReferenceIdeal.Read
import proofs.«161024_j29901562315014_1_alg».proof.Proof.Gen.Pre_finite_inputs
import proofs.«161024_j29901562315014_1_alg».proof.Proof.KernelRun
import proofs.«161024_j29901562315014_1_alg».proof.Proof.Segments
import proofs.«161024_j29901562315014_1_alg».proof.Proof.RefSide
import Idealize.ShloMosaic.Adequacy
import Idealize.ShloMosaic.Init

noncomputable section

namespace Cert.Proof

open Idealize.ShloMosaic Idealize.SL.Sem

/-- The word-level kernel program runs, and leaves its arguments as launched. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel program on the extended reals rewrote none of its operations. -/
theorem preserves : Cert.preserves_Kernel_KernelIdeal := trivial

/-- Both programs end with the second layer of the hidden array and its neighbour mean in their result buffers: the
    kernel program by its two regions' write-backs, the reference stage by stage, from arguments that agree. -/
theorem algebraic : Cert.algebraic_KernelIdeal_ReferenceIdeal := by
  intro m ρ m' ρ' _ hagree
  refine ⟨fun c => Cert.Sage.result m c, ?_, ?_⟩
  · exact (θ_run Cert.KernelIdeal.defs _ _).mono
      (fun _ h c => ⟨(h c).1.trans (Cert.Sage.result_eq m ρ c), (h c).2⟩) (Cert.Sage.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8⟩ := hagree c
    rw [Cert.ReferenceIdeal.Read.val_main_v50_eq, Cert.Sage.Ref.out_eq, a0, a1, a2, a3, a4, a5, a6, a7, a8]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
